-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x978 : Shape := ⟨2, ![8192, 978]⟩
abbrev S2x20000000 : Shape := ⟨2, ![2, 20000000]⟩
abbrev S1x1 : Shape := ⟨2, ![1, 1]⟩
abbrev S1 : Shape := ⟨1, ![1]⟩
abbrev S978x2048 : Shape := ⟨2, ![978, 2048]⟩
abbrev S2048 : Shape := ⟨1, ![2048]⟩
abbrev S2048x100 : Shape := ⟨2, ![2048, 100]⟩
abbrev S100 : Shape := ⟨1, ![100]⟩
abbrev S_ : Shape := ⟨0, ![]⟩

class Facts : Prop where
  bcast_S_S8192x978 : S_.BroadcastsInDim S8192x978 (![] : Fin 0 → Fin S8192x978.rank)
  reducesTo_S8192x978_S_d0_1 : S8192x978.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S978x2048 : S_.BroadcastsInDim S978x2048 (![] : Fin 0 → Fin S978x2048.rank)
  reducesTo_S978x2048_S_d0_1 : S978x2048.ReducesTo [0, 1] S_
  bcast_S_S2048 : S_.BroadcastsInDim S2048 (![] : Fin 0 → Fin S2048.rank)
  reducesTo_S2048_S_d0 : S2048.ReducesTo [0] S_
  bcast_S_S2048x100 : S_.BroadcastsInDim S2048x100 (![] : Fin 0 → Fin S2048x100.rank)
  reducesTo_S2048x100_S_d0_1 : S2048x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg5 : FVec F S2048 .f32) (main_arg6 : FVec F S2048x100 .f32) (main_arg7 : FVec F S100 .f32) (main_v13 : IVec S_ 1) (main_v16 : IVec S978x2048 1) : IVec S_ 1 :=
  let main_c_5 : IVec S_ 1 := constantI S_ 1 1#1
  let main_v17 : IVec S_ 1 := (fun x v => Host.reduce IntOp.andi x v reducesTo_S978x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x100 .f32 := Host.absf main_arg6
  let main_cst_8 : FVec F S_ .f32 := constant S_ .f32 0x7F800000#32
  let main_v25 : FVec F S2048x100 .f32 := broadcastInDim S2048x100 ![] bcast_S_S2048x100 main_cst_8
  let main_v26 : IVec S2048x100 1 := cmpf .olt main_v24 main_v25
  let main_c_9 : IVec S_ 1 := constantI S_ 1 1#1
  let main_v27 : IVec S_ 1 := (fun x v => Host.reduce IntOp.andi x v reducesTo_S2048x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S8192x978 .f32) (main_arg1 : IVec S2x20000000 32) (main_arg2 : FVec F S1x1 .f32) (main_arg3 : FVec F S1 .f32) (main_arg4 : FVec F S978x2048 .f32) (main_arg5 : FVec F S2048 .f32) (main_arg6 : FVec F S2048x100 .f32) (main_arg7 : FVec F S100 .f32) : IVec S_ 1 :=
  let main_v0 : FVec F S8192x978 .f32 := Host.absf main_arg0
  let main_cst : FVec F S_ .f32 := constant S_ .f32 0x7F800000#32
  let main_v1 : FVec F S8192x978 .f32 := broadcastInDim S8192x978 ![] bcast_S_S8192x978 main_cst
  let main_v2 : IVec S8192x978 1 := cmpf .olt main_v0 main_v1
  let main_c : IVec S_ 1 := constantI S_ 1 1#1
  let main_v3 : IVec S_ 1 := (fun x v => Host.reduce IntOp.andi x v reducesTo_S8192x978_S_d0_1 h_S_) main_v2 main_c
  let main_v4 : FVec F S1x1 .f32 := Host.absf main_arg2
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S978x2048 .f32 := Host.absf main_arg4
  let main_cst_4 : FVec F S_ .f32 := constant S_ .f32 0x7F800000#32
  let main_v15 : FVec F S978x2048 .f32 := broadcastInDim S978x2048 ![] bcast_S_S978x2048 main_cst_4
  let main_v16 : IVec S978x2048 1 := cmpf .olt main_v14 main_v15
  fn_part1 (F := F) main_arg5 main_arg6 main_arg7 main_v13 main_v16
-- ==== Kernel.lean ====
abbrev S8192x978 : Shape := ⟨2, ![8192, 978]⟩
abbrev S2x20000000 : Shape := ⟨2, ![2, 20000000]⟩
abbrev S1x1 : Shape := ⟨2, ![1, 1]⟩
abbrev S1 : Shape := ⟨1, ![1]⟩
abbrev S978x2048 : Shape := ⟨2, ![978, 2048]⟩
abbrev S2048 : Shape := ⟨1, ![2048]⟩
abbrev S2048x100 : Shape := ⟨2, ![2048, 100]⟩
abbrev S100 : Shape := ⟨1, ![100]⟩
abbrev S1x20000000 : Shape := ⟨2, ![1, 20000000]⟩
abbrev S20000000 : Shape := ⟨1, ![20000000]⟩
abbrev S8011776 : Shape := ⟨1, ![8011776]⟩
abbrev S_ : Shape := ⟨0, ![]⟩
abbrev S20000000x1 : Shape := ⟨2, ![20000000, 1]⟩
abbrev S2048x128 : Shape := ⟨2, ![2048, 128]⟩
abbrev S128 : Shape := ⟨1, ![128]⟩
abbrev S1x2048 : Shape := ⟨2, ![1, 2048]⟩
abbrev S1x128 : Shape := ⟨2, ![1, 128]⟩
abbrev S8192x128 : Shape := ⟨2, ![8192, 128]⟩
abbrev S1024x978 : Shape := ⟨2, ![1024, 978]⟩
abbrev S1024x128 : Shape := ⟨2, ![1024, 128]⟩
abbrev S1024x2048 : Shape := ⟨2, ![1024, 2048]⟩
abbrev S8192x100 : Shape := ⟨2, ![8192, 100]⟩

abbrev nBuf : Space → Nat
  | .hbm => 40
  | .vmem => 10
  | .smem => 0
  | _ => 0

abbrev bufTy : (tb : Table) → Fin (tcTables nBuf tb) → BufTy
  | .hbm, ⟨0, _⟩ => ⟨S8192x978, .f32⟩
  | .hbm, ⟨1, _⟩ => ⟨S2x20000000, .i32⟩
  | .hbm, ⟨2, _⟩ => ⟨S1x1, .f32⟩
  | .hbm, ⟨3, _⟩ => ⟨S1, .f32⟩
  | .hbm, ⟨4, _⟩ => ⟨S978x2048, .f32⟩
  | .hbm, ⟨5, _⟩ => ⟨S2048, .f32⟩
  | .hbm, ⟨6, _⟩ => ⟨S2048x100, .f32⟩
  | .hbm, ⟨7, _⟩ => ⟨S100, .f32⟩
  | .hbm, ⟨8, _⟩ => ⟨S1x20000000, .i32⟩
  | .hbm, ⟨9, _⟩ => ⟨S20000000, .i32⟩
  | .hbm, ⟨10, _⟩ => ⟨S1x20000000, .i32⟩
  | .hbm, ⟨11, _⟩ => ⟨S20000000, .i32⟩
  | .hbm, ⟨12, _⟩ => ⟨S8011776, .f32⟩
  | .hbm, ⟨13, _⟩ => ⟨S_, .i32⟩
  | .hbm, ⟨14, _⟩ => ⟨S20000000, .i32⟩
  | .hbm, ⟨15, _⟩ => ⟨S20000000, .i1⟩
  | .hbm, ⟨16, _⟩ => ⟨S_, .i32⟩
  | .hbm, ⟨17, _⟩ => ⟨S20000000, .i32⟩
  | .hbm, ⟨18, _⟩ => ⟨S20000000, .i32⟩
  | .hbm, ⟨19, _⟩ => ⟨S20000000, .i32⟩
  | .hbm, ⟨20, _⟩ => ⟨S20000000x1, .i32⟩
  | .hbm, ⟨21, _⟩ => ⟨S20000000, .f32⟩
  | .hbm, ⟨22, _⟩ => ⟨S_, .f32⟩
  | .hbm, ⟨23, _⟩ => ⟨S8011776, .f32⟩
  | .hbm, ⟨24, _⟩ => ⟨S20000000x1, .i32⟩
  | .hbm, ⟨25, _⟩ => ⟨S8011776, .f32⟩
  | .hbm, ⟨26, _⟩ => ⟨S8192x978, .f32⟩
  | .hbm, ⟨27, _⟩ => ⟨S978x2048, .bf16⟩
  | .hbm, ⟨28, _⟩ => ⟨S_, .i32⟩
  | .hbm, ⟨29, _⟩ => ⟨S_, .f32⟩
  | .hbm, ⟨30, _⟩ => ⟨S2048x128, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S2048x128, .bf16⟩
  | .hbm, ⟨35, _⟩ => ⟨S1x1, .f32⟩
  | .hbm, ⟨36, _⟩ => ⟨S1x2048, .f32⟩
  | .hbm, ⟨37, _⟩ => ⟨S1x128, .f32⟩
  | .hbm, ⟨38, _⟩ => ⟨S8192x128, .f32⟩
  | .hbm, ⟨39, _⟩ => ⟨S8192x100, .f32⟩
  | .local _ .vmem, ⟨0, _⟩ => ⟨S1024x978, .f32⟩
  | .local _ .vmem, ⟨1, _⟩ => ⟨S1024x978, .f32⟩
  | .local _ .vmem, ⟨2, _⟩ => ⟨S1x1, .f32⟩
  | .local _ .vmem, ⟨3, _⟩ => ⟨S1x1, .f32⟩
  | .local _ .vmem, ⟨4, _⟩ => ⟨S978x2048, .bf16⟩
  | .local _ .vmem, ⟨5, _⟩ => ⟨S1x2048, .f32⟩
  | .local _ .vmem, ⟨6, _⟩ => ⟨S2048x128, .bf16⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | _, _ => ⟨S8192x978, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_call0_v0 : Ref sig .tc := ⟨.hbm, 29, rfl⟩
abbrev main_v17 : Ref sig .tc := ⟨.hbm, 30, rfl⟩
abbrev main_c_2 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x978 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S978x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x20000000_S1x20000000_0_0 : S2x20000000.Slices ![0, 0] S1x20000000
  shapeCasts_S1x20000000_S20000000 : S1x20000000.ShapeCasts S20000000
  slices_S2x20000000_S1x20000000_1_0 : S2x20000000.Slices ![1, 0] S1x20000000
  shapeCasts_S8192x978_S8011776 : S8192x978.ShapeCasts S8011776
  bcast_S_S20000000 : S_.BroadcastsInDim S20000000 (![] : Fin 0 → Fin S20000000.rank)
  bcast_S20000000_S20000000x1_0 : S20000000.BroadcastsInDim S20000000x1 (![0] : Fin 1 → Fin S20000000x1.rank)
  bcast_S_S8011776 : S_.BroadcastsInDim S8011776 (![] : Fin 0 → Fin S8011776.rank)
  shapeCasts_S8011776_S8192x978 : S8011776.ShapeCasts S8192x978
  bitsLt_bf16_f32 : FTy.bits .bf16 < FTy.bits .f32
  pads_S2048x100_S2048x128_000_0280 : S2048x100.Pads (![0, 0] : Fin 2 → Nat) ![0, 28] ![0, 0] S2048x128
  h_S_ : 0 < S_.numel
  pads_S100_S128_0280 : S100.Pads (![0] : Fin 1 → Nat) ![28] ![0] S128
  shapeCasts_S1_S1x1 : S1.ShapeCasts S1x1
  shapeCasts_S2048_S1x2048 : S2048.ShapeCasts S1x2048
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x978_S1024x978_0_0 : ∀ a, (![0, 0] : Fin 2 → Nat) a + S1024x978.size a ≤ S1024x978.size a
  h_S1024x978 : 0 < S1024x978.numel
  shapeCasts_S1024x978_S1024x978 : S1024x978.ShapeCasts S1024x978
  broadcasts_S1x1_S1024x978 : S1x1.Broadcasts S1024x978
  inb_S978x2048_S978x2048_0_0 : ∀ a, (![0, 0] : Fin 2 → Nat) a + S978x2048.size a ≤ S978x2048.size a
  h_S978x2048 : 0 < S978x2048.numel
  shapeCasts_S978x2048_S978x2048 : S978x2048.ShapeCasts S978x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S8192x128_S8192x100_0_0 : S8192x128.Slices ![0, 0] S8192x100
  gather_S8011776_S20000000x1_S20000000_n_0_n_n_0_1_1_wf : GatherDims.WF S8011776 S20000000x1 S20000000 [] [0] [] [0] [] 1 ![1]
  scatter_S8011776_S20000000x1_S20000000_n_0_0_1_wf : ScatterDims.WF S8011776 S20000000x1 S20000000 [] [0] [0] 1
  dot_S1024x978_S978x2048_S1024x2048_1_0_0_1_n_n_wf : DotDims.WF S1024x978 S978x2048 S1024x2048 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x978.size a ≤ S8192x978.size a
  hwx0_0 : ∀ i : grid0.Coords, EltTy.bits .f32 = 32 ∨ (Rect.block (s := S8192x978) S1024x978.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S978x2048.size a ≤ S978x2048.size a
  hwx0_3 : ∀ i : grid0.Coords, EltTy.bits .bf16 = 32 ∨ (Rect.block (s := S978x2048) S978x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .bf16 = 32 ∨ (Rect.block (s := S2048x128) S2048x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .f32 = 32 ∨ (Rect.block (s := S8192x128) S1024x128.size (cc0_transform_7 i) (hinb0_7 i)).WholeWords (EltTy.packing .f32)

variable [Facts₀]

def gather_S8011776_S20000000x1_S20000000_n_0_n_n_0_1_1 : GatherDims S8011776 S20000000x1 S20000000 where
  offsetDims := []
  collapsedSliceDims := [0]
  operandBatchingDims := []
  startIndicesBatchingDims := []
  startIndexMap := [0]
  indexVectorDim := 1
  sliceSizes := ![1]
  wf := gather_S8011776_S20000000x1_S20000000_n_0_n_n_0_1_1_wf
def scatter_S8011776_S20000000x1_S20000000_n_0_0_1 : ScatterDims S8011776 S20000000x1 S20000000 where
  updateWindowDims := []
  insertedWindowDims := [0]
  scatterDimsToOperandDims := [0]
  indexVectorDim := 1
  wf := scatter_S8011776_S20000000x1_S20000000_n_0_0_1_wf
def dot_S1024x978_S978x2048_S1024x2048_1_0_0_1_n_n : DotDims S1024x978 S978x2048 S1024x2048 where
  lhsContracting := [1]
  rhsContracting := [0]
  lhsNonContracting := [0]
  rhsNonContracting := [1]
  lhsBatch := []
  rhsBatch := []
  wf := dot_S1024x978_S978x2048_S1024x2048_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v15) S1024x978.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S978x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2048x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x978 : Shape := ⟨2, ![8192, 978]⟩
abbrev S2x20000000 : Shape := ⟨2, ![2, 20000000]⟩
abbrev S1x1 : Shape := ⟨2, ![1, 1]⟩
abbrev S1 : Shape := ⟨1, ![1]⟩
abbrev S978x2048 : Shape := ⟨2, ![978, 2048]⟩
abbrev S2048 : Shape := ⟨1, ![2048]⟩
abbrev S2048x100 : Shape := ⟨2, ![2048, 100]⟩
abbrev S100 : Shape := ⟨1, ![100]⟩
abbrev S8011776 : Shape := ⟨1, ![8011776]⟩
abbrev S_ : Shape := ⟨0, ![]⟩
abbrev S1x20000000 : Shape := ⟨2, ![1, 20000000]⟩
abbrev S20000000 : Shape := ⟨1, ![20000000]⟩
abbrev S20000000x1 : Shape := ⟨2, ![20000000, 1]⟩
abbrev S8192x2048 : Shape := ⟨2, ![8192, 2048]⟩
abbrev S1x2048 : Shape := ⟨2, ![1, 2048]⟩
abbrev S8192x100 : Shape := ⟨2, ![8192, 100]⟩
abbrev S1x100 : Shape := ⟨2, ![1, 100]⟩

abbrev nBuf : Space → Nat
  | .hbm => 47
  | .vmem => 0
  | .smem => 0
  | _ => 0

abbrev bufTy : (tb : Table) → Fin (tcTables nBuf tb) → BufTy
  | .hbm, ⟨0, _⟩ => ⟨S8192x978, .f32⟩
  | .hbm, ⟨1, _⟩ => ⟨S2x20000000, .i32⟩
  | .hbm, ⟨2, _⟩ => ⟨S1x1, .f32⟩
  | .hbm, ⟨3, _⟩ => ⟨S1, .f32⟩
  | .hbm, ⟨4, _⟩ => ⟨S978x2048, .f32⟩
  | .hbm, ⟨5, _⟩ => ⟨S2048, .f32⟩
  | .hbm, ⟨6, _⟩ => ⟨S2048x100, .f32⟩
  | .hbm, ⟨7, _⟩ => ⟨S100, .f32⟩
  | .hbm, ⟨8, _⟩ => ⟨S8011776, .f32⟩
  | .hbm, ⟨9, _⟩ => ⟨S_, .f32⟩
  | .hbm, ⟨10, _⟩ => ⟨S8011776, .f32⟩
  | .hbm, ⟨11, _⟩ => ⟨S8011776, .f32⟩
  | .hbm, ⟨12, _⟩ => ⟨S1x20000000, .i32⟩
  | .hbm, ⟨13, _⟩ => ⟨S20000000, .i32⟩
  | .hbm, ⟨14, _⟩ => ⟨S1x20000000, .i32⟩
  | .hbm, ⟨15, _⟩ => ⟨S20000000, .i32⟩
  | .hbm, ⟨16, _⟩ => ⟨S_, .i32⟩
  | .hbm, ⟨17, _⟩ => ⟨S20000000, .i32⟩
  | .hbm, ⟨18, _⟩ => ⟨S20000000, .i1⟩
  | .hbm, ⟨19, _⟩ => ⟨S_, .i32⟩
  | .hbm, ⟨20, _⟩ => ⟨S20000000, .i32⟩
  | .hbm, ⟨21, _⟩ => ⟨S20000000, .i32⟩
  | .hbm, ⟨22, _⟩ => ⟨S20000000, .i32⟩
  | .hbm, ⟨23, _⟩ => ⟨S20000000x1, .i32⟩
  | .hbm, ⟨24, _⟩ => ⟨S20000000, .f32⟩
  | .hbm, ⟨25, _⟩ => ⟨S_, .f32⟩
  | .hbm, ⟨26, _⟩ => ⟨S8011776, .f32⟩
  | .hbm, ⟨27, _⟩ => ⟨S20000000x1, .i32⟩
  | .hbm, ⟨28, _⟩ => ⟨S8011776, .f32⟩
  | .hbm, ⟨29, _⟩ => ⟨S_, .f32⟩
  | .hbm, ⟨30, _⟩ => ⟨S8011776, .f32⟩
  | .hbm, ⟨31, _⟩ => ⟨S8011776, .f32⟩
  | .hbm, ⟨32, _⟩ => ⟨S8192x978, .f32⟩
  | .hbm, ⟨33, _⟩ => ⟨S_, .f32⟩
  | .hbm, ⟨34, _⟩ => ⟨S8192x978, .f32⟩
  | .hbm, ⟨35, _⟩ => ⟨S8192x978, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x100, .f32⟩
  | .hbm, ⟨44, _⟩ => ⟨S1x100, .f32⟩
  | .hbm, ⟨45, _⟩ => ⟨S8192x100, .f32⟩
  | .hbm, ⟨46, _⟩ => ⟨S8192x100, .f32⟩
  | _, _ => ⟨S8192x978, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  shapeCasts_S8192x978_S8011776 : S8192x978.ShapeCasts S8011776
  shapeCasts_S1x1_S_ : S1x1.ShapeCasts S_
  bcast_S_S8011776 : S_.BroadcastsInDim S8011776 (![] : Fin 0 → Fin S8011776.rank)
  slices_S2x20000000_S1x20000000_0_0 : S2x20000000.Slices ![0, 0] S1x20000000
  shapeCasts_S1x20000000_S20000000 : S1x20000000.ShapeCasts S20000000
  slices_S2x20000000_S1x20000000_1_0 : S2x20000000.Slices ![1, 0] S1x20000000
  bcast_S_S20000000 : S_.BroadcastsInDim S20000000 (![] : Fin 0 → Fin S20000000.rank)
  bcast_S20000000_S20000000x1_0 : S20000000.BroadcastsInDim S20000000x1 (![0] : Fin 1 → Fin S20000000x1.rank)
  shapeCasts_S1_S_ : S1.ShapeCasts S_
  shapeCasts_S8011776_S8192x978 : S8011776.ShapeCasts S8192x978
  bcast_S_S8192x978 : S_.BroadcastsInDim S8192x978 (![] : Fin 0 → Fin S8192x978.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S100_S1x100_1 : S100.BroadcastsInDim S1x100 (![1] : Fin 1 → Fin S1x100.rank)
  bcast_S1x100_S8192x100_0_1 : S1x100.BroadcastsInDim S8192x100 (![0, 1] : Fin 2 → Fin S8192x100.rank)
  gather_S8011776_S20000000x1_S20000000_n_0_n_n_0_1_1_wf : GatherDims.WF S8011776 S20000000x1 S20000000 [] [0] [] [0] [] 1 ![1]
  scatter_S8011776_S20000000x1_S20000000_n_0_0_1_wf : ScatterDims.WF S8011776 S20000000x1 S20000000 [] [0] [0] 1
  dot_S8192x978_S978x2048_S8192x2048_1_0_0_1_n_n_wf : DotDims.WF S8192x978 S978x2048 S8192x2048 [1] [0] [0] [1] [] []
  dot_S8192x2048_S2048x100_S8192x100_1_0_0_1_n_n_wf : DotDims.WF S8192x2048 S2048x100 S8192x100 [1] [0] [0] [1] [] []

variable [Facts₀]

def gather_S8011776_S20000000x1_S20000000_n_0_n_n_0_1_1 : GatherDims S8011776 S20000000x1 S20000000 where
  offsetDims := []
  collapsedSliceDims := [0]
  operandBatchingDims := []
  startIndicesBatchingDims := []
  startIndexMap := [0]
  indexVectorDim := 1
  sliceSizes := ![1]
  wf := gather_S8011776_S20000000x1_S20000000_n_0_n_n_0_1_1_wf
def scatter_S8011776_S20000000x1_S20000000_n_0_0_1 : ScatterDims S8011776 S20000000x1 S20000000 where
  updateWindowDims := []
  insertedWindowDims := [0]
  scatterDimsToOperandDims := [0]
  indexVectorDim := 1
  wf := scatter_S8011776_S20000000x1_S20000000_n_0_0_1_wf
def dot_S8192x978_S978x2048_S8192x2048_1_0_0_1_n_n : DotDims S8192x978 S978x2048 S8192x2048 where
  lhsContracting := [1]
  rhsContracting := [0]
  lhsNonContracting := [0]
  rhsNonContracting := [1]
  lhsBatch := []
  rhsBatch := []
  wf := dot_S8192x978_S978x2048_S8192x2048_1_0_0_1_n_n_wf
def dot_S8192x2048_S2048x100_S8192x100_1_0_0_1_n_n : DotDims S8192x2048 S2048x100 S8192x100 where
  lhsContracting := [1]
  rhsContracting := [0]
  lhsNonContracting := [0]
  rhsNonContracting := [1]
  lhsBatch := []
  rhsBatch := []
  wf := dot_S8192x2048_S2048x100_S8192x100_1_0_0_1_n_n_wf

class Facts : Prop extends Facts₀ where

variable [Facts]
-- ==== Proof.LibScalarTile.lean ====
/-
  Two small facts about a scalar carried as a 1 x 1 tile, every extent generic.

  * A 1 x 1 tile broadcast over [a, b] reads its one entry at every (p, c).
  * On the extended reals, a finite sum of real numbers started from zero, times a real number, is the sum of the
    products started from zero (a scalar weight moves across a segment sum when everything is finite); also the coercion
    of a finite real sum is the sum of the coercions.
-/
import Idealize.ShloMosaic.PureOps.Ideal
import Idealize.ShloMosaic.Lib.ValueIdx
import Idealize.ShloMosaic.Lib.Pipeline.Value

noncomputable section

open scoped BigOperators

namespace ScalarTile

open Idealize.ShloMosaic Idealize.ShloMosaic.ValueIdx

/-- A 1 x 1 tile broadcast over [a, b] reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The coercion of a finite sum of reals is the sum of the coercions. -/
theorem coe_sum {ι : Type} (S : Finset ι) (a : ι → ℝ) :
    ((∑ j ∈ S, a j : ℝ) : EReal) = ∑ j ∈ S, ((a j : ℝ) : EReal) := by
  classical
  refine Finset.induction_on S (by simp) fun i S hi ih => ?_
  rw [Finset.sum_insert hi, Finset.sum_insert hi, EReal.coe_add, ih]

/-- A finite sum of reals, started from zero, times a real is the sum of the products, started from zero. -/
theorem scale_sum {ι : Type} (S : Finset ι) (a : ι → ℝ) (w : ℝ) (z : EReal) (hz : z = 0) :
    (z + ∑ j ∈ S, ((a j : ℝ) : EReal)) * (w : EReal) = z + ∑ j ∈ S, ((a j : ℝ) : EReal) * (w : EReal) := by
  subst hz
  rw [zero_add, zero_add, ← coe_sum, ← EReal.coe_mul, Finset.sum_mul, coe_sum]
  exact Finset.sum_congr rfl fun j _ => EReal.coe_mul _ _

end ScalarTile

end
-- ==== Proof.Spec.lean ====
/-
  A one-channel graph convolution followed by a two-layer perceptron, as ONE function of the arguments, entry by entry on
  the extended reals.

  Every node n of the 8192 x 978 = 8011776 nodes collects, over the edges e whose destination word reads n, the feature of the
  edge's source node (the source word read signed and clamped into the node range). The convolution has one scalar weight w
  and one scalar bias b. It can be applied in two arrangements:

    scale after the sum :  max ((0 + sum over incoming e of f (src e)) * w + b) 0
    scale before the sum:  max ((0 + sum over incoming e of f (src e) * w) + b) 0

  The two agree when every feature and the weight are real numbers (a finite sum of reals times a real distributes); on the
  extended reals with infinities they need not. After the convolution, row p of the hidden matrix goes through
  max (h W1 + b1) 0 and then through W2, plus b2: `head`.
-/
import Idealize.ShloMosaic.PureOps.Ideal.Laws
import Idealize.ShloMosaic.Lib.ValueIdx
import proofs.«109672_j22591527977028_2_alg».proof.Proof.LibScalarTile

noncomputable section

open scoped BigOperators

namespace Cert.GraphHead

open Idealize.ShloMosaic Idealize.ShloMosaic.ValueIdx

/-- The node an edge reads its message from: the edge's source word, read as a signed integer and clamped into the node
    range. -/
def srcNode (I : IVec ⟨2, ![20000000, 1]⟩ 32) (e : Fin 20000000) : Fin 8011776 :=
  ⟨min (I (ix2 e 0)).toInt.toNat (8011776 - 1), by omega⟩

/-- The edges that deliver to node n: those whose destination word, read as a signed integer, is n. -/
def incoming (J : IVec ⟨2, ![20000000, 1]⟩ 32) (n : Fin 8011776) : Finset (⟨1, ![20000000]⟩ : Shape).Idx :=
  Finset.univ.filter fun j => (J (ix2 (j 0) 0)).toInt = (n.val : Int)

/-- What node n collects from a flat feature array f: the start value plus the features of the sources of its incoming
    edges. -/
def collect (z : EReal) (f : (⟨1, ![8011776]⟩ : Shape).Idx → EReal) (I J : IVec ⟨2, ![20000000, 1]⟩ 32)
    (n : Fin 8011776) : EReal :=
  z + ∑ j ∈ incoming J n, f (ix1 (srcNode I (j 0)))

/-- The node at row p, column j of the 8192 x 978 matrix of nodes, in row-major order. -/
def node (p : Fin 8192) (j : Fin 978) : Fin 8011776 :=
  ⟨p.val * 978 + j.val, by have := p.isLt; have := j.isLt; omega⟩

/-- The convolution with the scalar weight applied AFTER the sum over incoming edges. -/
def hiddenScaleAfter (f : (⟨1, ![8011776]⟩ : Shape).Idx → EReal) (I J : IVec ⟨2, ![20000000, 1]⟩ 32) (w b : EReal)
    (p : Fin 8192) (j : Fin 978) : EReal :=
  max (collect (Ideal.ofBits .f32 0x00000000#32) f I J (node p j) * w + b) (Ideal.ofBits .f32 0x00000000#32)

/-- The convolution with the scalar weight applied to every feature BEFORE the sum. -/
def hiddenScaleBefore (f : (⟨1, ![8011776]⟩ : Shape).Idx → EReal) (I J : IVec ⟨2, ![20000000, 1]⟩ 32) (w b : EReal)
    (p : Fin 8192) (j : Fin 978) : EReal :=
  max (collect (Ideal.ofBits .f32 0x00000000#32) (fun i => f i * w) I J (node p j) + b) (Ideal.ofBits .f32 0x00000000#32)

/-- One output entry of the perceptron from one hidden row h: sum over k of max (sum over j of h j * W1 (j, k) + b1 k) 0
    times the output column's entry k, plus the output bias. -/
def head (h : Fin 978 → EReal) (W1 : (⟨2, ![978, 2048]⟩ : Shape).Idx → EReal) (b1 : Fin 2048 → EReal)
    (w2 : Fin 2048 → EReal) (b2 : EReal) : EReal :=
  (∑ k : Fin 2048, max ((∑ j : Fin 978, h j * W1 (ix2 j k)) + b1 k) (Ideal.ofBits .f32 0x00000000#32) * w2 k) + b2

/-- The whole result, 8192 x 100, with the weight applied before the sum. -/
def result (f : (⟨1, ![8011776]⟩ : Shape).Idx → EReal) (I J : IVec ⟨2, ![20000000, 1]⟩ 32) (w b : EReal)
    (W1 : (⟨2, ![978, 2048]⟩ : Shape).Idx → EReal) (b1 : (⟨1, ![2048]⟩ : Shape).Idx → EReal)
    (W2 : (⟨2, ![2048, 100]⟩ : Shape).Idx → EReal) (b2 : (⟨1, ![100]⟩ : Shape).Idx → EReal) :
    (⟨2, ![8192, 100]⟩ : Shape).Idx → EReal := fun i =>
  head (hiddenScaleBefore f I J w b (i 0)) W1 (fun k => b1 (ix1 k)) (fun k => W2 (ix2 k (i 1))) (b2 (ix1 (i 1)))

/-- The whole result, 8192 x 100, with the weight applied after the sum. -/
def resultAfter (f : (⟨1, ![8011776]⟩ : Shape).Idx → EReal) (I J : IVec ⟨2, ![20000000, 1]⟩ 32) (w b : EReal)
    (W1 : (⟨2, ![978, 2048]⟩ : Shape).Idx → EReal) (b1 : (⟨1, ![2048]⟩ : Shape).Idx → EReal)
    (W2 : (⟨2, ![2048, 100]⟩ : Shape).Idx → EReal) (b2 : (⟨1, ![100]⟩ : Shape).Idx → EReal) :
    (⟨2, ![8192, 100]⟩ : Shape).Idx → EReal := fun i =>
  head (hiddenScaleAfter f I J w b (i 0)) W1 (fun k => b1 (ix1 k)) (fun k => W2 (ix2 k (i 1))) (b2 (ix1 (i 1)))

/-! ## The law joining the two arrangements -/

/-- For real features and a real weight the two arrangements of the convolution agree at every node. -/
theorem hiddenScaleAfter_eq_before (f : (⟨1, ![8011776]⟩ : Shape).Idx → EReal) (I J : IVec ⟨2, ![20000000, 1]⟩ 32)
    (w b : EReal) (hf : ∀ i, ∃ r : ℝ, f i = (r : EReal)) (hw : ∃ r : ℝ, w = (r : EReal)) (p : Fin 8192) (j : Fin 978) :
    hiddenScaleAfter f I J w b p j = hiddenScaleBefore f I J w b p j := by
  obtain ⟨wr, rfl⟩ := hw
  choose fr hfr using hf
  unfold hiddenScaleAfter hiddenScaleBefore collect
  simp only [hfr]
  rw [ScalarTile.scale_sum (incoming J (node p j)) (fun j => fr (ix1 (srcNode I (j 0)))) wr _ Ideal.ofBits_zero_f32]

/-- So the two whole results agree for real features and a real weight. -/
theorem resultAfter_eq_result (f : (⟨1, ![8011776]⟩ : Shape).Idx → EReal) (I J : IVec ⟨2, ![20000000, 1]⟩ 32) (w b : EReal)
    (W1 : (⟨2, ![978, 2048]⟩ : Shape).Idx → EReal) (b1 : (⟨1, ![2048]⟩ : Shape).Idx → EReal)
    (W2 : (⟨2, ![2048, 100]⟩ : Shape).Idx → EReal) (b2 : (⟨1, ![100]⟩ : Shape).Idx → EReal)
    (hf : ∀ i, ∃ r : ℝ, f i = (r : EReal)) (hw : ∃ r : ℝ, w = (r : EReal)) :
    resultAfter f I J w b W1 b1 W2 b2 = result f I J w b W1 b1 W2 b2 := by
  funext i
  unfold resultAfter result
  exact congrArg (fun h => head h W1 (fun k => b1 (ix1 k)) (fun k => W2 (ix2 k (i 1))) (b2 (ix1 (i 1))))
    (funext fun j => hiddenScaleAfter_eq_before f I J w b hf hw (i 0) j)

end Cert.GraphHead

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.RefValue.lean ====
/-
  The reference program's result, stage by stage, is the graph head's `result` of its arguments: the flattened input, the
  two index columns (sources, wrapped when negative; destinations), the scalar weight and bias, and the perceptron's
  weights. The reference multiplies every node feature by the weight before it gathers and sums.
-/
import proofs.«109672_j22591527977028_2_alg».proof.Proof.Gen.ReferenceIdeal.Read
import proofs.«109672_j22591527977028_2_alg».proof.Proof.Spec
import proofs.«109672_j22591527977028_2_alg».proof.Proof.LibGatherScatter

noncomputable section

open scoped BigOperators

namespace Cert.ReferenceIdeal.RefValue

open Cert.ReferenceIdeal Cert.ReferenceIdeal.Gen Cert.ReferenceIdeal.Read
open Idealize.ShloMosaic Idealize.ShloMosaic.ValueIdx Cert.GraphHead

/-- The scalar weight: the [1, 1] argument recast to rank 0 reads its one entry. -/
theorem weight_apply (x2 : (⟨S1x1, .f32⟩ : BufTy).Contents (Elt Ideal)) (i : S_.Idx) :
    val_main_v1 (F := Ideal) x2 i = x2 (ix2 0 0) := by
  unfold val_main_v1
  refine shapeCast_apply x2 shapeCasts_S1x1_S_ i (ix2 0 0) ?_
  have h := (S_.rowMajor i).isLt
  rw [Shape.rowMajor_val_two]
  show 0 * 1 + 0 = _
  have : S_.numel = 1 := by decide
  omega

/-- The scalar bias: the [1] argument recast to rank 0 reads its one entry. -/
theorem bias_apply (x3 : (⟨S1, .f32⟩ : BufTy).Contents (Elt Ideal)) (i : S_.Idx) :
    val_main_v18 (F := Ideal) x3 i = x3 (ix1 0) := by
  unfold val_main_v18
  refine shapeCast_apply x3 shapeCasts_S1_S_ i (ix1 0) ?_
  have h := (S_.rowMajor i).isLt
  rw [Shape.rowMajor_val_one]
  show 0 = _
  have : S_.numel = 1 := by decide
  omega

/-- The hidden matrix after the convolution, at (p, j): the weight is applied to every feature before the sum. -/
theorem hidden_apply (x0 : (⟨S8192x978, .f32⟩ : BufTy).Contents (Elt Ideal)) (x1 : (⟨S2x20000000, .i32⟩ : BufTy).Contents (Elt Ideal))
    (x2 : (⟨S1x1, .f32⟩ : BufTy).Contents (Elt Ideal)) (x3 : (⟨S1, .f32⟩ : BufTy).Contents (Elt Ideal)) (p : Fin 8192) (j : Fin 978) :
    val_main_v22 (F := Ideal) x0 x1 x2 x3 (ix2 p j)
      = hiddenScaleBefore (val_main_v0 (F := Ideal) x0) (val_main_v13 (F := Ideal) x1) (val_main_v16 (F := Ideal) x1)
          (x2 (ix2 0 0)) (x3 (ix1 0)) p j := by
  have hn : idx_main_v21 (ix2 p j) = ix1 (node p j) := funext fun a => Fin.ext (by match a with | ⟨0, _⟩ => rfl)
  rw [val_main_v22_apply, val_main_v21_apply, val_main_v20_apply, val_main_call0_v0_apply, val_main_call0_cst_apply,
    val_main_v19_apply, bias_apply, hn]
  unfold val_main_v17
  rw [Pegcn.Lib.scatterAdd1_apply _ rfl rfl rfl rfl, val_main_v15_apply, val_main_cst_apply]
  unfold hiddenScaleBefore collect incoming
  show max (_ + _ + _) _ = max (_ + _ + _) _
  refine congrArg (fun s => max (Ideal.ofBits .f32 0x00000000#32 + s + x3 (ix1 0)) (Ideal.ofBits .f32 0x00000000#32)) ?_
  refine Finset.sum_congr rfl fun e _ => ?_
  obtain ⟨e, rfl⟩ : ∃ e', e = ix1 e' := ⟨e 0, eq_ix1 e⟩
  unfold val_main_v14
  rw [Pegcn.Lib.gather1_apply (by decide) _ rfl rfl rfl rfl rfl rfl, val_main_v3_apply, val_main_v2_apply, weight_apply]
  rfl

/-- The reference's result array is the graph head's `result` of the arguments: entry (p, q) is the perceptron's output
    from row p of the hidden matrix. -/
theorem result_eq (x0 : (⟨S8192x978, .f32⟩ : BufTy).Contents (Elt Ideal)) (x1 : (⟨S2x20000000, .i32⟩ : BufTy).Contents (Elt Ideal))
    (x2 : (⟨S1x1, .f32⟩ : BufTy).Contents (Elt Ideal)) (x3 : (⟨S1, .f32⟩ : BufTy).Contents (Elt Ideal))
    (x4 : (⟨S978x2048, .f32⟩ : BufTy).Contents (Elt Ideal)) (x5 : (⟨S2048, .f32⟩ : BufTy).Contents (Elt Ideal))
    (x6 : (⟨S2048x100, .f32⟩ : BufTy).Contents (Elt Ideal)) (x7 : (⟨S100, .f32⟩ : BufTy).Contents (Elt Ideal)) :
    val_main_v31 (F := Ideal) x0 x1 x2 x3 x4 x5 x6 x7
      = result (val_main_v0 (F := Ideal) x0) (val_main_v13 (F := Ideal) x1) (val_main_v16 (F := Ideal) x1)
          (x2 (ix2 0 0)) (x3 (ix1 0)) x4 x5 x6 x7 := by
  funext i
  obtain ⟨p, q, rfl⟩ : ∃ (p : Fin 8192) (q : Fin 100), i = ix2 p q := ⟨i 0, i 1, eq_ix2 i⟩
  rw [val_main_v31_apply, val_main_v28_apply, val_main_v30_apply, val_main_v29_apply]
  unfold result head
  show (∑ k : Fin 2048, _ * _) + _ = (∑ k : Fin 2048, _ * _) + _
  refine congrArg₂ (· + ·) (Finset.sum_congr rfl fun k _ => ?_)
    (congrArg x7 (funext fun a => Fin.ext (by match a with | ⟨0, _⟩ => rfl)))
  have hl : lidx_main_v28 (ix2 p q) k = ix2 p k :=
    funext fun a => Fin.ext (by match a with | ⟨0, _⟩ => rfl | ⟨1, _⟩ => rfl)
  have hr : ridx_main_v28 (ix2 p q) k = ix2 k q :=
    funext fun a => Fin.ext (by match a with | ⟨0, _⟩ => rfl | ⟨1, _⟩ => rfl)
  rw [hl, hr, val_main_v27_apply, val_main_v26_apply, val_main_call1_v0_apply, val_main_call1_cst_apply,
    val_main_v25_apply, val_main_v24_apply, val_main_v23_apply]
  show max (_ + _) _ * _ = max (_ + _) _ * _
  refine congrArg₂ (· * ·) (congrArg₂ max (congrArg₂ (· + ·) (Finset.sum_congr rfl fun j _ => ?_)
    (congrArg x5 (funext fun a => Fin.ext (by match a with | ⟨0, _⟩ => rfl)))) rfl) rfl
  have hl' : lidx_main_v23 (ix2 p k) j = ix2 p j :=
    funext fun a => Fin.ext (by match a with | ⟨0, _⟩ => rfl | ⟨1, _⟩ => rfl)
  have hr' : ridx_main_v23 (ix2 p k) j = ix2 j k :=
    funext fun a => Fin.ext (by match a with | ⟨0, _⟩ => rfl | ⟨1, _⟩ => rfl)
  rw [hl', hr', hidden_apply]

end Cert.ReferenceIdeal.RefValue

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«109672_j22591527977028_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.TileValue.lean ====
/-
  One tile of the kernel body, read at an entry. The body takes a 1024 x 978 tile x of collected node features, the
  scalar weight and bias as 1 x 1 tiles, and the perceptron's weights; it forms max (x * w + b) 0, multiplies by W1 on the
  matrix unit into a zero accumulator, adds the bias row, rectifies, multiplies by the (padded) W2 and adds the (padded)
  output bias row. The narrowing casts before each product are the identity on the extended reals. Entry (p, q) of the
  stored tile is therefore the graph head's `head` of row p of the rectified tile.
-/
import proofs.«109672_j22591527977028_2_alg».proof.Proof.Gen.KernelIdeal.Skeleton
import proofs.«109672_j22591527977028_2_alg».proof.Proof.Spec
import proofs.«109672_j22591527977028_2_alg».proof.Proof.LibDotRecord
import proofs.«109672_j22591527977028_2_alg».proof.Proof.LibScalarTile
import Idealize.ShloMosaic.Lib.ValueLayout
import Idealize.ShloMosaic.Lib.Pipeline.Value

noncomputable section

open scoped BigOperators

namespace Cert.KernelIdeal.TileValue

open Cert.KernelIdeal Cert.KernelIdeal.Gen
open Idealize.ShloMosaic Idealize.ShloMosaic.ValueIdx Cert.GraphHead

/-- The stored tile at (p, q): the perceptron's output entry from row p of max (x * w + b) 0. -/
theorem tile_apply (x1 x2 : FVec Ideal S1x1 .f32) (x0 : FVec Ideal S1024x978 .f32) (x3 : FVec Ideal S978x2048 .bf16)
    (x4 : FVec Ideal S1x2048 .f32) (x5 : FVec Ideal S2048x128 .bf16) (x6 : FVec Ideal S1x128 .f32)
    (p : Fin 1024) (q : Fin 128) :
    k0_pay1 (F := Ideal) x1 x2 x0 x3 x4 x5 x6 (ix2 p q)
      = head (fun j => max (x0 (ix2 p j) * x1 (ix2 0 0) + x2 (ix2 0 0)) (Ideal.ofBits .f32 0x00000000#32)) x3
          (fun k => x4 (ix2 0 k)) (fun k => x5 (ix2 k q)) (x6 (ix2 0 q)) := by
  unfold k0_pay1 head
  dsimp only
  refine congrArg₂ (· + ·) ?_ ((broadcastTo_1b_ab_apply _ _ p q).trans (by rw [shapeCast_self]))
  refine (DotRecord.matmul_zero_apply dot_S1024x2048_S2048x128_S1024x128_1_0_0_1_n_n rfl rfl rfl rfl rfl rfl _ _ none p q).trans ?_
  refine Finset.sum_congr rfl fun k _ => ?_
  refine congrArg₂ (· * ·) ?_ (by rw [shapeCast_self])
  show max (_ + _) _ = max (_ + _) _
  refine congrArg₂ max (congrArg₂ (· + ·) ?_ ((broadcastTo_1b_ab_apply _ _ p k).trans (by rw [shapeCast_self]))) rfl
  refine (DotRecord.matmul_zero_apply dot_S1024x978_S978x2048_S1024x2048_1_0_0_1_n_n rfl rfl rfl rfl rfl rfl _ _ none p k).trans ?_
  refine Finset.sum_congr rfl fun j _ => ?_
  refine congrArg₂ (· * ·) ?_ (by rw [shapeCast_self])
  show max (_ * _ + _) _ = max (_ * _ + _) _
  refine congrArg₂ max (congrArg₂ (· + ·) (congrArg₂ (· * ·) (by rw [shapeCast_self]) (ScalarTile.broadcastTo_11_ab_apply _ _ p j))
    ((ScalarTile.broadcastTo_11_ab_apply _ _ p j).trans (by rw [shapeCast_self]))) rfl

end Cert.KernelIdeal.TileValue

end
-- ==== Proof.ArrayValue.lean ====
/-
  From tiles to the whole array. The grid has 8 points; point t takes rows 1024 t … 1024 t + 1023 of the collected-feature
  matrix and writes rows 1024 t … 1024 t + 1023 of the 8192 x 128 output; every other operand is fetched whole. So the output
  array after the run is ONE function of the arrays the region finds: entry (r, q) is the perceptron's output from row r of
  max (A * w + b) 0.
-/
import proofs.«109672_j22591527977028_2_alg».proof.Proof.Gen.KernelIdeal.Frame
import proofs.«109672_j22591527977028_2_alg».proof.Proof.TileValue
import Idealize.ShloMosaic.Lib.Pipeline.Value

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx Cert.GraphHead

variable (m : (ℓ : Loc nD τ sig) → Buf (Elt Ideal) ℓ) (ρ : Dev nD → PrngReg)

theorem hz : (![0, 0] : Fin 2 → Nat) = fun _ => 0 := funext fun a => by fin_cases a <;> rfl

/-- The padded output as one function of the arrays the region finds. -/
def padded (A : S8192x978.Idx → EReal) (w b : S1x1.Idx → EReal) (W1 : S978x2048.Idx → EReal) (B1 : S1x2048.Idx → EReal)
    (W2 : S2048x128.Idx → EReal) (B2 : S1x128.Idx → EReal) : S8192x128.Idx → EReal := fun i =>
  head (fun j => max (A (ix2 (i 0) j) * w (ix2 0 0) + b (ix2 0 0)) (Ideal.ofBits .f32 0x00000000#32)) W1
    (fun k => B1 (ix2 0 k)) (fun k => W2 (ix2 k (i 1))) (B2 (ix2 0 (i 1)))

/-- `head` respects equality of each of its arguments. -/
theorem head_congr {h h' : Fin 978 → EReal} {W1 W1' : (⟨2, ![978, 2048]⟩ : Shape).Idx → EReal} {b1 b1' w2 w2' : Fin 2048 → EReal}
    {b2 b2' : EReal} (e1 : h = h') (e2 : W1 = W1') (e3 : b1 = b1') (e4 : w2 = w2') (e5 : b2 = b2') :
    head h W1 b1 w2 b2 = head h' W1' b1' w2' b2' := by subst e1 e2 e3 e4 e5; rfl

/-- The printed index maps over the grid: the feature matrix and the output move down one block of rows per point, every
    other operand stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each window's block at a point, read off ANY array -/

/-- Point t's block of the collected-feature matrix is rows 1024 t … 1024 t + 1023. -/
theorem rows_read (t : Fin cfg0.N) (ht : t.val < 8) (A : S8192x978.Idx → EReal) (p : Fin 1024) (j : Fin 978) :
    ((cfg0.win 0).blk t).view.read (Elt Ideal) A (ix2 p j)
      = A (ix2 (⟨t.val * 1024 + p.val, by have := p.isLt; omega⟩ : Fin 8192) j) := by
  obtain ⟨e00, e01, -⟩ := idx_facts t
  show A (((cfg0.win 0).blk t).view.emb (ix2 p j)) = _
  refine congrArg A (funext fun a => Fin.ext ?_)
  match a with
  | ⟨0, _⟩ => show win0_0.index t (0 : Fin 2) * 1024 + 1 * p.val = t.val * 1024 + p.val; omega
  | ⟨1, _⟩ => show win0_0.index t (1 : Fin 2) * 978 + 1 * j.val = j.val; omega

/-- The scalar weight's block is the 1 x 1 array. -/
theorem weight_read (t : Fin cfg0.N) (A : S1x1.Idx → EReal) :
    ((cfg0.win 1).blk t).view.read (Elt Ideal) A (ix2 0 0) = A (ix2 0 0) := by
  obtain ⟨-, -, e10, e11, -⟩ := idx_facts t
  show A (((cfg0.win 1).blk t).view.emb (ix2 0 0)) = _
  refine congrArg A (funext fun a => Fin.ext ?_)
  match a with
  | ⟨0, _⟩ => show win0_1.index t (0 : Fin 2) * 1 + 1 * 0 = 0; omega
  | ⟨1, _⟩ => show win0_1.index t (1 : Fin 2) * 1 + 1 * 0 = 0; omega

/-- The scalar bias's block is the 1 x 1 array. -/
theorem bias_read (t : Fin cfg0.N) (A : S1x1.Idx → EReal) :
    ((cfg0.win 2).blk t).view.read (Elt Ideal) A (ix2 0 0) = A (ix2 0 0) := by
  obtain ⟨-, -, -, -, e20, e21, -⟩ := idx_facts t
  show A (((cfg0.win 2).blk t).view.emb (ix2 0 0)) = _
  refine congrArg A (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- W1's block is all of W1. -/
theorem w1_read (t : Fin cfg0.N) (A : S978x2048.Idx → EReal) (j : Fin 978) (k : Fin 2048) :
    ((cfg0.win 3).blk t).view.read (Elt Ideal) A (ix2 j k) = A (ix2 j k) := by
  obtain ⟨-, -, -, -, -, -, e30, e31, -⟩ := idx_facts t
  show A (((cfg0.win 3).blk t).view.emb (ix2 j k)) = _
  refine congrArg A (funext fun a => Fin.ext ?_)
  match a with
  | ⟨0, _⟩ => show win0_3.index t (0 : Fin 2) * 978 + 1 * j.val = j.val; omega
  | ⟨1, _⟩ => show win0_3.index t (1 : Fin 2) * 2048 + 1 * k.val = k.val; omega

/-- The hidden bias row's block is the whole row. -/
theorem b1_read (t : Fin cfg0.N) (A : S1x2048.Idx → EReal) (k : Fin 2048) :
    ((cfg0.win 4).blk t).view.read (Elt Ideal) A (ix2 0 k) = A (ix2 0 k) := by
  obtain ⟨-, -, -, -, -, -, -, -, e40, e41, -⟩ := idx_facts t
  show A (((cfg0.win 4).blk t).view.emb (ix2 0 k)) = _
  refine congrArg A (funext fun a => Fin.ext ?_)
  match a with
  | ⟨0, _⟩ => show win0_4.index t (0 : Fin 2) * 1 + 1 * 0 = 0; omega
  | ⟨1, _⟩ => show win0_4.index t (1 : Fin 2) * 2048 + 1 * k.val = k.val; omega

/-- The padded W2's block is all of it. -/
theorem w2_read (t : Fin cfg0.N) (A : S2048x128.Idx → EReal) (k : Fin 2048) (q : Fin 128) :
    ((cfg0.win 5).blk t).view.read (Elt Ideal) A (ix2 k q) = A (ix2 k q) := by
  obtain ⟨-, -, -, -, -, -, -, -, -, -, e50, e51, -⟩ := idx_facts t
  show A (((cfg0.win 5).blk t).view.emb (ix2 k q)) = _
  refine congrArg A (funext fun a => Fin.ext ?_)
  match a with
  | ⟨0, _⟩ => show win0_5.index t (0 : Fin 2) * 2048 + 1 * k.val = k.val; omega
  | ⟨1, _⟩ => show win0_5.index t (1 : Fin 2) * 128 + 1 * q.val = q.val; omega

/-- The padded output bias row's block is the whole row. -/
theorem b2_read (t : Fin cfg0.N) (A : S1x128.Idx → EReal) (q : Fin 128) :
    ((cfg0.win 6).blk t).view.read (Elt Ideal) A (ix2 0 q) = A (ix2 0 q) := by
  obtain ⟨-, -, -, -, -, -, -, -, -, -, -, -, e60, e61, -⟩ := idx_facts t
  show A (((cfg0.win 6).blk t).view.emb (ix2 0 q)) = _
  refine congrArg A (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

/-- Point t's block of the output is rows 1024 t … 1024 t + 1023. -/
theorem out_read (t : Fin cfg0.N) (ht : t.val < 8) (G : S8192x128.Idx → EReal) (p : Fin 1024) (q : Fin 128) :
    ((cfg0.win 7).blk t).view.read (Elt Ideal) G (ix2 p q)
      = G (ix2 (⟨t.val * 1024 + p.val, by have := p.isLt; omega⟩ : Fin 8192) q) := by
  obtain ⟨-, -, -, -, -, -, -, -, -, -, -, -, -, -, e70, e71⟩ := idx_facts t
  show G (((cfg0.win 7).blk t).view.emb (ix2 p q)) = _
  refine congrArg G (funext fun a => Fin.ext ?_)
  match a with
  | ⟨0, _⟩ => show win0_7.index t (0 : Fin 2) * 1024 + 1 * p.val = t.val * 1024 + p.val; omega
  | ⟨1, _⟩ => show win0_7.index t (1 : Fin 2) * 128 + 1 * q.val = q.val; omega

/-- What point t writes back is block t of the padded output. -/
theorem flushed_eq (c : Dev nD) (t : Fin cfg0.N) :
    (dats m 0 c).flushed 7 t = ((cfg0.win 7).blk t).view.read (Elt Ideal)
      (padded (V m c main_v15) (V m c main_arg2) (V m c main_v20) (V m c main_v16) (V m c main_v21) (V m c main_v19)
        (V m c main_v22)) := by
  show (cfg0.win 7).cut (grid0.coords t) ((dats m 0 c).after 7 t) = _
  rw [after0_7]
  unfold out0_7
  rw [View.canon_unit_zero hz]
  simp only [View.ld_unit_zero (S := S1x1) hz, View.ld_unit_zero (S := S1024x978) hz, View.ld_unit_zero (S := S978x2048) hz,
    View.ld_unit_zero (S := S1x2048) hz, View.ld_unit_zero (S := S2048x128) hz, View.ld_unit_zero (S := S1x128) hz]
  have ht : t.val < 8 := by have := t.isLt; have hN : cfg0.N = 8 := N_0; omega
  funext y
  obtain ⟨p, q, rfl⟩ : ∃ (p : Fin 1024) (q : Fin 128), y = ix2 p q := ⟨y 0, y 1, eq_ix2 y⟩
  rw [out_read t ht _ p q]
  refine (TileValue.tile_apply (iblk m c 1 t) (iblk m c 2 t) (iblk m c 0 t) (iblk m c 3 t) (iblk m c 4 t) (iblk m c 5 t)
    (iblk m c 6 t) p q).trans ?_
  unfold padded
  refine head_congr (funext fun j => ?_) (funext fun i => ?_) (funext fun k => ?_) (funext fun k => ?_) ?_
  · exact congrArg₂ max (congrArg₂ (· + ·) (congrArg₂ (· * ·) (rows_read t ht (V m c main_v15) p j)
      (weight_read t (V m c main_arg2))) (bias_read t (V m c main_v20))) rfl
  · obtain ⟨j, k, rfl⟩ : ∃ (j : Fin 978) (k : Fin 2048), i = ix2 j k := ⟨i 0, i 1, eq_ix2 i⟩
    exact w1_read t (V m c main_v16) j k
  · exact b1_read t (V m c main_v21) k
  · exact w2_read t (V m c main_v19) k q
  · exact b2_read t (V m c main_v22) q

/-- An index of the output array is in point t's block iff each coordinate is in the block's range on its axis. -/
theorem mem_blk (t : Fin cfg0.N) (i : S8192x128.Idx) :
    i ∈ ((cfg0.win 7).blk t).view.set ↔ ∀ a : Fin 2, win0_7.index t a * S1024x128.size a ≤ (i a).val
      ∧ (i a).val < win0_7.index t a * S1024x128.size a + S1024x128.size a := by
  show i ∈ ((View.whole main_v23).slice (win0_7.rect t)).set ↔ _
  rw [View.set_slice_whole, Rect.mem_set_unit]
  exact Iff.rfl

/-- Every row of the output belongs to the point that holds its block of 1024 rows. -/
theorem cover (i : S8192x128.Idx) :
    ∃ t : Fin cfg0.N, (cfg0.win 7).flush t = true ∧ i ∈ ((cfg0.win 7).blk t).view.set := by
  have hN : cfg0.N = 8 := N_0
  have hi0 : (i 0).val < 8192 := (i 0).isLt
  have hi1 : (i 1).val < 128 := (i 1).isLt
  refine ⟨⟨(i 0).val / 1024, by omega⟩, flush0_7 _, ?_⟩
  rw [mem_blk]
  obtain ⟨-, -, -, -, -, -, -, -, -, -, -, -, -, -, e70, e71⟩ := idx_facts ⟨(i 0).val / 1024, by omega⟩
  intro a
  match a with
  | ⟨0, _⟩ =>
    show win0_7.index ⟨(i 0).val / 1024, _⟩ (0 : Fin 2) * 1024 ≤ (i 0).val
      ∧ (i 0).val < win0_7.index ⟨(i 0).val / 1024, _⟩ (0 : Fin 2) * 1024 + 1024
    rw [e70]; show (i 0).val / 1024 * 1024 ≤ (i 0).val ∧ (i 0).val < (i 0).val / 1024 * 1024 + 1024; omega
  | ⟨1, _⟩ =>
    show win0_7.index ⟨(i 0).val / 1024, _⟩ (1 : Fin 2) * 128 ≤ (i 1).val
      ∧ (i 1).val < win0_7.index ⟨(i 0).val / 1024, _⟩ (1 : Fin 2) * 128 + 128
    rw [e71]; omega

/-- The output array after the run. -/
theorem final (c : Dev nD) : (dats m 0 c).arrAt 7 cfg0.N
    = padded (V m c main_v15) (V m c main_arg2) (V m c main_v20) (V m c main_v16) (V m c main_v21) (V m c main_v19)
        (V m c main_v22) :=
  (dats m 0 c).arrAt_eq_of_cover 7 _ (fun t _ => flushed_eq m c t) cover

end Cert.KernelIdeal.ArrayValue

end
-- ==== Proof.HostValue.lean ====
/-
  What the region finds in each operand's array, as a term of the program's arguments, and each read at an entry.

  Before the region the host flattens the input, gathers the flat input at the edges' source words (a negative word wrapped
  by the node count first) and accumulates the gathered features at the edges' destination words into a zero array, which
  it folds back to 8192 x 978; it narrows W1; it pads W2 and the output bias from 100 to 128 columns with zeros; and it
  recasts the biases as rows. Read at an entry, the collected-feature matrix is the graph head's `collect`, and the padded
  operands read their originals at every column below 100.
-/
import proofs.«109672_j22591527977028_2_alg».proof.Proof.Gen.KernelIdeal.Frame
import proofs.«109672_j22591527977028_2_alg».proof.Proof.Spec
import proofs.«109672_j22591527977028_2_alg».proof.Proof.LibGatherScatter
import Idealize.ShloMosaic.Lib.StableHlo.Run
import Idealize.ShloMosaic.Lib.KernelVsHost
import Idealize.ShloMosaic.Lib.ValueLayout
import Idealize.ShloMosaic.Lib.Pipeline.Value

noncomputable section

open scoped BigOperators

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx Cert.GraphHead

variable (m : (ℓ : Loc nD τ sig) → Buf (Elt Ideal) ℓ)

/-- The input matrix flattened in row-major order. -/
def flat (x : S8192x978.Idx → EReal) : S8011776.Idx → EReal :=
  shapeCast S8011776 x shapeCasts_S8192x978_S8011776

/-- Row r of the 2 x E edge array as a flat vector of E words. -/
def edgeRow0 (e : IVec S2x20000000 32) : IVec S20000000 32 :=
  shapeCast S20000000 (extractStridedSlice S1x20000000 ![0, 0] e slices_S2x20000000_S1x20000000_0_0)
    shapeCasts_S1x20000000_S20000000

def edgeRow1 (e : IVec S2x20000000 32) : IVec S20000000 32 :=
  shapeCast S20000000 (extractStridedSlice S1x20000000 ![1, 0] e slices_S2x20000000_S1x20000000_1_0)
    shapeCasts_S1x20000000_S20000000

/-- The column of source words, a negative word wrapped by the node count. -/
def srcCol (e : IVec S2x20000000 32) : IVec S20000000x1 32 :=
  broadcastInDim S20000000x1 ![0] bcast_S20000000_S20000000x1_0
    (select (cmpi .slt (edgeRow0 e) (broadcastInDim S20000000 ![] bcast_S_S20000000 (constantI S_ 32 0#32)))
      (addi (edgeRow0 e) (broadcastInDim S20000000 ![] bcast_S_S20000000 (constantI S_ 32 8011776#32))) (edgeRow0 e))

/-- The column of destination words. -/
def dstCol (e : IVec S2x20000000 32) : IVec S20000000x1 32 :=
  broadcastInDim S20000000x1 ![0] bcast_S20000000_S20000000x1_0 (edgeRow1 e)

set_option maxHeartbeats 4000000 in
/-- The collected-feature matrix as the host computes it. -/
theorem features_eq (c : Dev nD) : (V m c main_v15 : S8192x978.Idx → EReal)
    = shapeCast S8192x978
        (Host.scatterAdd scatter_S8011776_S20000000x1_S20000000_n_0_0_1
          (broadcastInDim S8011776 ![] bcast_S_S8011776 (constant (F := Ideal) S_ .f32 0x00000000#32))
          (dstCol (m ((c : Thread nD τ).loc main_arg1)))
          (Host.gather gather_S8011776_S20000000x1_S20000000_n_0_n_n_0_1_1 (flat (m ((c : Thread nD τ).loc main_arg0)))
            (srcCol (m ((c : Thread nD τ).loc main_arg1)))))
        shapeCasts_S8011776_S8192x978 := by
  dsimp only [V, V0]
  simp only [hostOps0, hostOps0_1, hostOps0_2, hostOps0_3, hostOps0_4, List.flatten_cons, List.flatten_nil,
    List.append_nil, List.cons_append, List.nil_append]
  after_results
  rfl

set_option maxHeartbeats 4000000 in
/-- The narrowed W1 is W1 (a change of format is the identity on the extended reals). -/
theorem w1_eq (c : Dev nD) : (V m c main_v16 : S978x2048.Idx → EReal) = m ((c : Thread nD τ).loc main_arg4) := by
  dsimp only [V, V0]
  simp only [hostOps0, hostOps0_1, hostOps0_2, hostOps0_3, hostOps0_4, List.flatten_cons, List.flatten_nil,
    List.append_nil, List.cons_append, List.nil_append]
  after_results
  rfl

set_option maxHeartbeats 4000000 in
/-- The padded, narrowed W2. -/
theorem w2_eq (c : Dev nD) : (V m c main_v19 : S2048x128.Idx → EReal)
    = pad S2048x128 ![0, 0] ![0, 28] ![0, 0] (m ((c : Thread nD τ).loc main_arg6))
        (sitofp (F := Ideal) .f32 (constantI S_ 32 0#32)) pads_S2048x100_S2048x128_000_0280 h_S_ := by
  dsimp only [V, V0]
  simp only [hostOps0, hostOps0_1, hostOps0_2, hostOps0_3, hostOps0_4, List.flatten_cons, List.flatten_nil,
    List.append_nil, List.cons_append, List.nil_append]
  after_results
  rfl

set_option maxHeartbeats 4000000 in
/-- The convolution's bias as a 1 x 1 tile. -/
theorem gb_eq (c : Dev nD) : (V m c main_v20 : S1x1.Idx → EReal)
    = shapeCast S1x1 (m ((c : Thread nD τ).loc main_arg3)) shapeCasts_S1_S1x1 := by
  dsimp only [V, V0]
  simp only [hostOps0, hostOps0_1, hostOps0_2, hostOps0_3, hostOps0_4, List.flatten_cons, List.flatten_nil,
    List.append_nil, List.cons_append, List.nil_append]
  after_results
  rfl

set_option maxHeartbeats 4000000 in
/-- The hidden bias as a row. -/
theorem b1_eq (c : Dev nD) : (V m c main_v21 : S1x2048.Idx → EReal)
    = shapeCast S1x2048 (m ((c : Thread nD τ).loc main_arg5)) shapeCasts_S2048_S1x2048 := by
  dsimp only [V, V0]
  simp only [hostOps0, hostOps0_1, hostOps0_2, hostOps0_3, hostOps0_4, List.flatten_cons, List.flatten_nil,
    List.append_nil, List.cons_append, List.nil_append]
  after_results
  rfl

set_option maxHeartbeats 4000000 in
/-- The padded output bias as a row. -/
theorem b2_eq (c : Dev nD) : (V m c main_v22 : S1x128.Idx → EReal)
    = shapeCast S1x128 (pad S128 ![0] ![28] ![0] (m ((c : Thread nD τ).loc main_arg7))
        (sitofp (F := Ideal) .f32 (constantI S_ 32 0#32)) pads_S100_S128_0280 h_S_) shapeCasts_S128_S1x128 := by
  dsimp only [V, V0]
  simp only [hostOps0, hostOps0_1, hostOps0_2, hostOps0_3, hostOps0_4, List.flatten_cons, List.flatten_nil,
    List.append_nil, List.cons_append, List.nil_append]
  after_results
  rfl

/-! ## Read at an entry -/

/-- Entry (p, j) of the collected-feature matrix: what node (p, j) collects from the flat input. -/
theorem features_apply (c : Dev nD) (p : Fin 8192) (j : Fin 978) :
    (V m c main_v15 : S8192x978.Idx → EReal) (ix2 p j)
      = collect (Ideal.ofBits .f32 0x00000000#32) (flat (m ((c : Thread nD τ).loc main_arg0)))
          (srcCol (m ((c : Thread nD τ).loc main_arg1))) (dstCol (m ((c : Thread nD τ).loc main_arg1))) (node p j) := by
  refine (congrFun (features_eq m c) (ix2 p j)).trans ?_
  rw [shapeCast_apply _ shapeCasts_S8011776_S8192x978 (ix2 p j) (ix1 (node p j))
    (by rw [Shape.rowMajor_val_one, Shape.rowMajor_val_two]; rfl),
    Pegcn.Lib.scatterAdd1_apply _ rfl rfl rfl rfl]
  unfold collect incoming
  refine congrArg₂ (· + ·) rfl (Finset.sum_congr rfl fun e _ => ?_)
  obtain ⟨e, rfl⟩ : ∃ e', e = ix1 e' := ⟨e 0, eq_ix1 e⟩
  exact Pegcn.Lib.gather1_apply (by decide) _ rfl rfl rfl rfl rfl rfl _ _ e

/-- The bias tile's one entry is the bias argument's one entry. -/
theorem gb_apply (c : Dev nD) : (V m c main_v20 : S1x1.Idx → EReal) (ix2 0 0) = m ((c : Thread nD τ).loc main_arg3) (ix1 0) := by
  refine (congrFun (gb_eq m c) (ix2 0 0)).trans ?_
  exact shapeCast_a_1a_apply _ shapeCasts_S1_S1x1 0 0

/-- The hidden bias row at column k. -/
theorem b1_apply (c : Dev nD) (k : Fin 2048) :
    (V m c main_v21 : S1x2048.Idx → EReal) (ix2 0 k) = m ((c : Thread nD τ).loc main_arg5) (ix1 k) := by
  refine (congrFun (b1_eq m c) (ix2 0 k)).trans ?_
  exact shapeCast_a_1a_apply _ shapeCasts_S2048_S1x2048 0 k

/-- The padded W2 at a column below 100 is W2 there. -/
theorem w2_apply (c : Dev nD) (k : Fin 2048) (q : Fin 100) (q' : Fin 128) (hq : q'.val = q.val) :
    (V m c main_v19 : S2048x128.Idx → EReal) (ix2 k q') = m ((c : Thread nD τ).loc main_arg6) (ix2 k q) := by
  refine (congrFun (w2_eq m c) (ix2 k q')).trans ?_
  refine pad_apply_of_inside _ _ _ _ _ pads_S2048x100_S2048x128_000_0280 h_S_ (ix2 k q') (ix2 k q) fun a => ?_
  match a with
  | ⟨0, _⟩ => show k.val = 0 + k.val * (0 + 1); omega
  | ⟨1, _⟩ => show q'.val = 0 + q.val * (0 + 1); omega

/-- The padded output bias row at a column below 100 is the output bias there. -/
theorem b2_apply (c : Dev nD) (q : Fin 100) (q' : Fin 128) (hq : q'.val = q.val) :
    (V m c main_v22 : S1x128.Idx → EReal) (ix2 0 q') = m ((c : Thread nD τ).loc main_arg7) (ix1 q) := by
  refine (congrFun (b2_eq m c) (ix2 0 q')).trans ?_
  rw [shapeCast_a_1a_apply _ shapeCasts_S128_S1x128 0 q']
  refine pad_apply_of_inside _ _ _ _ _ pads_S100_S128_0280 h_S_ (ix1 q') (ix1 q) fun a => ?_
  match a with
  | ⟨0, _⟩ => show q'.val = 0 + q.val * (0 + 1); omega

end Cert.KernelIdeal.HostValue

end
-- ==== Proof.RunValue.lean ====
/-
  The kernel program's result as a function of its arguments. After the region the host cuts columns 0 … 99 out of the
  padded 8192 x 128 output. Entry (p, q) of the result is therefore the perceptron's output from row p of
  max (collected * w + b) 0 against column q of W2 and entry q of the output bias: the graph head's `resultAfter`.
-/
import proofs.«109672_j22591527977028_2_alg».proof.Proof.ArrayValue
import proofs.«109672_j22591527977028_2_alg».proof.Proof.HostValue
import Idealize.ShloMosaic.Lib.StableHlo.Run
import Idealize.ShloMosaic.Lib.ValueLayout

noncomputable section

open Idealize.ShloMosaic Idealize.ShloMosaic.TcCoe Idealize.SL.Sem Idealize.ShloMosaic.StableHlo
open Idealize.ShloMosaic.Pipeline (Dat)

namespace Cert.KernelIdeal.RunValue

open Cert.KernelIdeal Cert.KernelIdeal.Gen Idealize.ShloMosaic.ValueIdx Cert.GraphHead

variable (m : (ℓ : Loc nD τ sig) → Buf (Elt Ideal) ℓ) (ρ : Dev nD → PrngReg)

/-- The kernel program's result on core c, from the arguments as launched. -/
def value (c : Dev nD) : S8192x100.Idx → EReal :=
  resultAfter (HostValue.flat (m ((c : Thread nD τ).loc main_arg0))) (HostValue.srcCol (m ((c : Thread nD τ).loc main_arg1)))
    (HostValue.dstCol (m ((c : Thread nD τ).loc main_arg1))) (m ((c : Thread nD τ).loc main_arg2) (ix2 0 0))
    (m ((c : Thread nD τ).loc main_arg3) (ix1 0)) (m ((c : Thread nD τ).loc main_arg4)) (m ((c : Thread nD τ).loc main_arg5))
    (m ((c : Thread nD τ).loc main_arg6)) (m ((c : Thread nD τ).loc main_arg7))

set_option maxHeartbeats 1000000 in
/-- What the host line after the region leaves in the result buffer. -/
theorem tail_eq (c : Dev nD) :
    (Pipeline.afterTail₀ cfgs (dats m) 0 (V0 m) [hostOps1] c main_v24 : S8192x100.Idx → EReal) = value m c := by
  unfold Pipeline.afterTail₀
  show StableHlo.after hostOps1 _ (Proc.devRef .tc main_v24) = _
  after_results
  have hA : Pipeline.withArrays (cfgs 0).spec c (V0 m c) (fun w => (dats m 0 c).arrAt w (cfgs 0).N) (Proc.devRef .tc main_v23)
      = (dats m 0 c).arrAt 7 cfg0.N := Pipeline.withArrays_arr spec0 launch0.win.arr_inj c _ _ 7
  rw [hA, ArrayValue.final]
  funext i
  obtain ⟨p, q, rfl⟩ : ∃ (p : Fin 8192) (q : Fin 100), i = ix2 p q := ⟨i 0, i 1, eq_ix2 i⟩
  have hq : q.val < 100 := q.isLt
  rw [slice2_axis1_apply 0 _ slices_S8192x128_S8192x100_0_0 p q (⟨q.val, by omega⟩ : Fin 128) (by simp)]
  unfold ArrayValue.padded value resultAfter hiddenScaleAfter
  refine ArrayValue.head_congr (funext fun j => ?_) (HostValue.w1_eq m c) (funext fun k => HostValue.b1_apply m c k)
    (funext fun k => HostValue.w2_apply m c k q _ rfl) (HostValue.b2_apply m c q _ rfl)
  rw [HostValue.features_apply, HostValue.gb_apply, V_main_arg2]

/-- The run, read: the result buffer ends at `value`, the arguments unchanged. -/
theorem run : θ_run defs (onTc (τ := τ) (main (F := Ideal))) ⟨m, fun _ => 0, ρ⟩ fun r => ∀ c : Dev nD,
      r.2.mem ((c.tc : Thread nD τ).loc main_v24) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v24 (Pipeline.mem_restRefs_of main_v24 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.RunValue

end
-- ==== Proof.Finite.lean ====
/-
  What the precondition gives: every entry of the input matrix and the convolution's scalar weight is a real number.
  The precondition is the conjunction, over the float arguments, of "every |entry| is below +infinity"; an extended real
  whose absolute value is below +infinity is neither infinity.
-/
import proofs.«109672_j22591527977028_2_alg».proof.Pre_finite_inputs
import Idealize.ShloMosaic.Lib.ReduceAll
import Idealize.ShloMosaic.PureOps.Ideal.Laws
import Idealize.ShloMosaic.Lib.ValueIdx

noncomputable section

namespace Cert.Pre_finite_inputs.Finite

open Cert.Pre_finite_inputs Idealize.ShloMosaic Idealize.ShloMosaic.ValueIdx

instance : Subsingleton S_.Idx := ⟨fun a b => funext fun d => d.elim0⟩

/-- An extended real whose absolute value compares below the +infinity word is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]
open Facts

/-- Under the precondition the input matrix and the scalar weight hold real numbers only. -/
theorem inputs_weight_real (a0 : FVec Ideal S8192x978 .f32) (a1 : IVec S2x20000000 32) (a2 : FVec Ideal S1x1 .f32)
    (a3 : FVec Ideal S1 .f32) (a4 : FVec Ideal S978x2048 .f32) (a5 : FVec Ideal S2048 .f32) (a6 : FVec Ideal S2048x100 .f32)
    (a7 : FVec Ideal S100 .f32) (h : fn (F := Ideal) a0 a1 a2 a3 a4 a5 a6 a7 = fun _ => 1#1) :
    (∀ i, ∃ r : ℝ, a0 i = (r : EReal)) ∧ (∀ i, ∃ r : ℝ, a2 i = (r : EReal)) := by
  have h0 := congrFun h ix0
  dsimp only [fn, fn_part1] at h0
  obtain ⟨h28, -⟩ := IntOp.andi_eq_one.1 h0
  obtain ⟨h23, -⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨h3, h7⟩ := IntOp.andi_eq_one.1 h8
  exact ⟨fun i => real_of_abs_lt (a0 i) (Host.reduce_andi_all _ _ _ _ _ h3 i),
    fun i => real_of_abs_lt (a2 i) (Host.reduce_andi_all _ _ _ _ _ h7 i)⟩

end Cert.Pre_finite_inputs.Finite

end
-- ==== Proof.lean ====
/-
  The five claims of this certificate.

  The three programs run and leave their arguments unchanged: the two kernel programs by their generated frames, the
  reference by its generated run. The idealization rewrote nothing, so `preserves` has nothing to state. For `algebraic`:
  at the ideal instance the kernel program's result is the graph head's `resultAfter` of the arguments (the convolution's
  scalar weight applied after the sum over incoming edges) and the reference's is its `result` (the weight applied to
  every node feature before the sum). The precondition makes every input entry and the weight real numbers, and for real
  numbers a finite sum times a real distributes, so the two are one function. The narrowing of the matrix products'
  operands is the identity on the extended reals, and the 28 zero columns the kernel pads W2 and the output bias with are
  cut away again after the region.
-/
import proofs.«109672_j22591527977028_2_alg».proof.Defs
import proofs.«109672_j22591527977028_2_alg».proof.Proof.Gen.Kernel
import proofs.«109672_j22591527977028_2_alg».proof.Proof.Gen.Kernel.Skeleton
import proofs.«109672_j22591527977028_2_alg».proof.Proof.Gen.Kernel.Launch
import proofs.«109672_j22591527977028_2_alg».proof.Proof.Gen.Kernel.Points
import proofs.«109672_j22591527977028_2_alg».proof.Proof.Gen.Kernel.Frame
import proofs.«109672_j22591527977028_2_alg».proof.Proof.Gen.KernelIdeal
import proofs.«109672_j22591527977028_2_alg».proof.Proof.Gen.KernelIdeal.Skeleton
import proofs.«109672_j22591527977028_2_alg».proof.Proof.Gen.KernelIdeal.Launch
import proofs.«109672_j22591527977028_2_alg».proof.Proof.Gen.KernelIdeal.Points
import proofs.«109672_j22591527977028_2_alg».proof.Proof.Gen.KernelIdeal.Frame
import proofs.«109672_j22591527977028_2_alg».proof.Proof.Gen.ReferenceIdeal
import proofs.«109672_j22591527977028_2_alg».proof.Proof.Gen.Pre_finite_inputs
import proofs.«109672_j22591527977028_2_alg».proof.Proof.Gen.ReferenceIdeal.Run
import proofs.«109672_j22591527977028_2_alg».proof.Proof.Gen.ReferenceIdeal.Read
import proofs.«109672_j22591527977028_2_alg».proof.Proof.RefValue
import proofs.«109672_j22591527977028_2_alg».proof.Proof.RunValue
import proofs.«109672_j22591527977028_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's result (weight after the sum) and the reference's (weight before the sum) are one function of
    arguments that agree, the input and the weight being real under the precondition. -/
theorem algebraic : Cert.algebraic_KernelIdeal_ReferenceIdeal := by
  intro m ρ m' ρ' hpre hagree
  refine ⟨fun c => Cert.KernelIdeal.RunValue.value m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Pre_finite_inputs.Finite.inputs_weight_real _ _ _ _ _ _ _ _ (hpre c)
  obtain ⟨e0, e1, e2, e3, e4, e5, e6, e7⟩ := hagree c
  rw [Cert.ReferenceIdeal.Read.val_main_v31_eq, Cert.ReferenceIdeal.RefValue.result_eq, e0, e1, e2, e3, e4, e5, e6, e7]
  unfold Cert.KernelIdeal.RunValue.value
  refine Eq.trans ?_ (Cert.GraphHead.resultAfter_eq_result _ _ _ _ _ _ _ _ _
    (fun i => by unfold Cert.KernelIdeal.HostValue.flat shapeCast; exact hx _) (hw (ix2 0 0))).symm
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
